-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x3072 : Shape := ⟨2, ![32768, 3072]⟩
abbrev S3072x1024 : Shape := ⟨2, ![3072, 1024]⟩
abbrev S1024 : Shape := ⟨1, ![1024]⟩
abbrev S1024x50 : Shape := ⟨2, ![1024, 50]⟩
abbrev S50 : Shape := ⟨1, ![50]⟩
abbrev S_ : Shape := ⟨0, ![]⟩

class Facts : Prop where
  bcast_S_S32768x3072 : S_.BroadcastsInDim S32768x3072 (![] : Fin 0 → Fin S32768x3072.rank)
  reducesTo_S32768x3072_S_d0_1 : S32768x3072.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024 : S_.BroadcastsInDim S1024 (![] : Fin 0 → Fin S1024.rank)
  reducesTo_S1024_S_d0 : S1024.ReducesTo [0] S_
  bcast_S_S1024x50 : S_.BroadcastsInDim S1024x50 (![] : Fin 0 → Fin S1024x50.rank)
  reducesTo_S1024x50_S_d0_1 : S1024x50.ReducesTo [0, 1] S_
  bcast_S_S50 : S_.BroadcastsInDim S50 (![] : Fin 0 → Fin S50.rank)
  reducesTo_S50_S_d0 : S50.ReducesTo [0] S_

variable [Facts]

def fn_part1 {F : FTy → Type} [FloatOps F] (main_arg4 : FVec F S50 .f32) (main_v13 : IVec S_ 1) (main_v16 : IVec S1024x50 1) : IVec S_ 1 :=
  let main_c_5 : IVec S_ 1 := constantI S_ 1 1#1
  let main_v17 : IVec S_ 1 := (fun x v => Host.reduce IntOp.andi x v reducesTo_S1024x50_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  main_v23

def fn {F : FTy → Type} [FloatOps F] (main_arg0 : FVec F S32768x3072 .f32) (main_arg1 : FVec F S3072x1024 .f32) (main_arg2 : FVec F S1024 .f32) (main_arg3 : FVec F S1024x50 .f32) (main_arg4 : FVec F S50 .f32) : IVec S_ 1 :=
  let main_v0 : FVec F S32768x3072 .f32 := Host.absf main_arg0
  let main_cst : FVec F S_ .f32 := constant S_ .f32 0x7F800000#32
  let main_v1 : FVec F S32768x3072 .f32 := broadcastInDim S32768x3072 ![] bcast_S_S32768x3072 main_cst
  let main_v2 : IVec S32768x3072 1 := cmpf .olt main_v0 main_v1
  let main_c : IVec S_ 1 := constantI S_ 1 1#1
  let main_v3 : IVec S_ 1 := (fun x v => Host.reduce IntOp.andi x v reducesTo_S32768x3072_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x50 .f32 := Host.absf main_arg3
  let main_cst_4 : FVec F S_ .f32 := constant S_ .f32 0x7F800000#32
  let main_v15 : FVec F S1024x50 .f32 := broadcastInDim S1024x50 ![] bcast_S_S1024x50 main_cst_4
  let main_v16 : IVec S1024x50 1 := cmpf .olt main_v14 main_v15
  fn_part1 (F := F) main_arg4 main_v13 main_v16
-- ==== Kernel.lean ====
abbrev S32768x3072 : Shape := ⟨2, ![32768, 3072]⟩
abbrev S3072x1024 : Shape := ⟨2, ![3072, 1024]⟩
abbrev S1024 : Shape := ⟨1, ![1024]⟩
abbrev S1024x50 : Shape := ⟨2, ![1024, 50]⟩
abbrev S50 : Shape := ⟨1, ![50]⟩
abbrev S1x1024 : Shape := ⟨2, ![1, 1024]⟩
abbrev S_ : Shape := ⟨0, ![]⟩
abbrev S1024x128 : Shape := ⟨2, ![1024, 128]⟩
abbrev S1x50 : Shape := ⟨2, ![1, 50]⟩
abbrev S1x128 : Shape := ⟨2, ![1, 128]⟩
abbrev S32768x128 : Shape := ⟨2, ![32768, 128]⟩
abbrev S512x3072 : Shape := ⟨2, ![512, 3072]⟩
abbrev S512x128 : Shape := ⟨2, ![512, 128]⟩
abbrev S512x1024 : Shape := ⟨2, ![512, 1024]⟩
abbrev S32768x50 : Shape := ⟨2, ![32768, 50]⟩

abbrev nBuf : Space → Nat
  | .hbm => 17
  | .vmem => 8
  | .smem => 0
  | _ => 0

abbrev bufTy : (tb : Table) → Fin (tcTables nBuf tb) → BufTy
  | .hbm, ⟨0, _⟩ => ⟨S32768x3072, .f32⟩
  | .hbm, ⟨1, _⟩ => ⟨S3072x1024, .f32⟩
  | .hbm, ⟨2, _⟩ => ⟨S1024, .f32⟩
  | .hbm, ⟨3, _⟩ => ⟨S1024x50, .f32⟩
  | .hbm, ⟨4, _⟩ => ⟨S50, .f32⟩
  | .hbm, ⟨5, _⟩ => ⟨S3072x1024, .bf16⟩
  | .hbm, ⟨6, _⟩ => ⟨S1024x50, .bf16⟩
  | .hbm, ⟨7, _⟩ => ⟨S1x1024, .f32⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S1x50, .f32⟩
  | .hbm, ⟨12, _⟩ => ⟨S_, .i32⟩
  | .hbm, ⟨13, _⟩ => ⟨S_, .f32⟩
  | .hbm, ⟨14, _⟩ => ⟨S1x128, .f32⟩
  | .hbm, ⟨15, _⟩ => ⟨S32768x128, .f32⟩
  | .hbm, ⟨16, _⟩ => ⟨S32768x50, .f32⟩
  | .local _ .vmem, ⟨0, _⟩ => ⟨S512x3072, .f32⟩
  | .local _ .vmem, ⟨1, _⟩ => ⟨S512x3072, .f32⟩
  | .local _ .vmem, ⟨2, _⟩ => ⟨S3072x1024, .bf16⟩
  | .local _ .vmem, ⟨3, _⟩ => ⟨S1x1024, .f32⟩
  | .local _ .vmem, ⟨4, _⟩ => ⟨S1024x128, .bf16⟩
  | .local _ .vmem, ⟨5, _⟩ => ⟨S1x128, .f32⟩
  | .local _ .vmem, ⟨6, _⟩ => ⟨S512x128, .f32⟩
  | .local _ .vmem, ⟨7, _⟩ => ⟨S512x128, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S1024_S1x1024 : S1024.ShapeCasts S1x1024
  pads_S1024x50_S1024x128_000_0780 : S1024x50.Pads (![0, 0] : Fin 2 → Nat) ![0, 78] ![0, 0] S1024x128
  h_S_ : 0 < S_.numel
  shapeCasts_S50_S1x50 : S50.ShapeCasts S1x50
  pads_S1x50_S1x128_000_0780 : S1x50.Pads (![0, 0] : Fin 2 → Nat) ![0, 78] ![0, 0] S1x128
  inb_S512x3072_S512x3072_0_0 : ∀ a, (![0, 0] : Fin 2 → Nat) a + S512x3072.size a ≤ S512x3072.size a
  h_S512x3072 : 0 < S512x3072.numel
  inb_S3072x1024_S3072x1024_0_0 : ∀ a, (![0, 0] : Fin 2 → Nat) a + S3072x1024.size a ≤ S3072x1024.size a
  h_S3072x1024 : 0 < S3072x1024.numel
  shapeCasts_S3072x1024_S3072x1024 : S3072x1024.ShapeCasts S3072x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  slices_S32768x128_S32768x50_0_0 : S32768x128.Slices ![0, 0] S32768x50
  dot_S512x3072_S3072x1024_S512x1024_1_0_0_1_n_n_wf : DotDims.WF S512x3072 S3072x1024 S512x1024 [1] [0] [0] [1] [] []
  dot_S512x1024_S1024x128_S512x128_1_0_0_1_n_n_wf : DotDims.WF S512x1024 S1024x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3072.size a ≤ S32768x3072.size a
  hwx0_0 : ∀ i : grid0.Coords, EltTy.bits .f32 = 32 ∨ (Rect.block (s := S32768x3072) S512x3072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3072x1024.size a ≤ S3072x1024.size a
  hwx0_1 : ∀ i : grid0.Coords, EltTy.bits .bf16 = 32 ∨ (Rect.block (s := S3072x1024) S3072x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .bf16 = 32 ∨ (Rect.block (s := S1024x128) S1024x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S32768x128.size a
  hwx0_5 : ∀ i : grid0.Coords, EltTy.bits .f32 = 32 ∨ (Rect.block (s := S32768x128) S512x128.size (cc0_transform_5 i) (hinb0_5 i)).WholeWords (EltTy.packing .f32)

variable [Facts₀]

def dot_S512x3072_S3072x1024_S512x1024_1_0_0_1_n_n : DotDims S512x3072 S3072x1024 S512x1024 where
  lhsContracting := [1]
  rhsContracting := [0]
  lhsNonContracting := [0]
  rhsNonContracting := [1]
  lhsBatch := []
  rhsBatch := []
  wf := dot_S512x3072_S3072x1024_S512x1024_1_0_0_1_n_n_wf
def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf

abbrev win0_0 : Pipeline.Window sig grid0 :=
  Pipeline.Window.ofSpec (Memref.whole main_arg0) S512x3072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3072x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S512x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32768x3072 : Shape := ⟨2, ![32768, 3072]⟩
abbrev S3072x1024 : Shape := ⟨2, ![3072, 1024]⟩
abbrev S1024 : Shape := ⟨1, ![1024]⟩
abbrev S1024x50 : Shape := ⟨2, ![1024, 50]⟩
abbrev S50 : Shape := ⟨1, ![50]⟩
abbrev S32768x1024 : Shape := ⟨2, ![32768, 1024]⟩
abbrev S1x1024 : Shape := ⟨2, ![1, 1024]⟩
abbrev S_ : Shape := ⟨0, ![]⟩
abbrev S32768x50 : Shape := ⟨2, ![32768, 50]⟩
abbrev S1x50 : Shape := ⟨2, ![1, 50]⟩

abbrev nBuf : Space → Nat
  | .hbm => 16
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S3072x1024, .f32⟩
  | .hbm, ⟨2, _⟩ => ⟨S1024, .f32⟩
  | .hbm, ⟨3, _⟩ => ⟨S1024x50, .f32⟩
  | .hbm, ⟨4, _⟩ => ⟨S50, .f32⟩
  | .hbm, ⟨5, _⟩ => ⟨S32768x1024, .f32⟩
  | .hbm, ⟨6, _⟩ => ⟨S1x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768x1024, .f32⟩
  | .hbm, ⟨11, _⟩ => ⟨S32768x1024, .f32⟩
  | .hbm, ⟨12, _⟩ => ⟨S32768x50, .f32⟩
  | .hbm, ⟨13, _⟩ => ⟨S1x50, .f32⟩
  | .hbm, ⟨14, _⟩ => ⟨S32768x50, .f32⟩
  | .hbm, ⟨15, _⟩ => ⟨S32768x50, .f32⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x1024 : S_.BroadcastsInDim S32768x1024 (![] : Fin 0 → Fin S32768x1024.rank)
  bcast_S50_S1x50_1 : S50.BroadcastsInDim S1x50 (![1] : Fin 1 → Fin S1x50.rank)
  bcast_S1x50_S32768x50_0_1 : S1x50.BroadcastsInDim S32768x50 (![0, 1] : Fin 2 → Fin S32768x50.rank)
  dot_S32768x3072_S3072x1024_S32768x1024_1_0_0_1_n_n_wf : DotDims.WF S32768x3072 S3072x1024 S32768x1024 [1] [0] [0] [1] [] []
  dot_S32768x1024_S1024x50_S32768x50_1_0_0_1_n_n_wf : DotDims.WF S32768x1024 S1024x50 S32768x50 [1] [0] [0] [1] [] []

variable [Facts₀]

def dot_S32768x3072_S3072x1024_S32768x1024_1_0_0_1_n_n : DotDims S32768x3072 S3072x1024 S32768x1024 where
  lhsContracting := [1]
  rhsContracting := [0]
  lhsNonContracting := [0]
  rhsNonContracting := [1]
  lhsBatch := []
  rhsBatch := []
  wf := dot_S32768x3072_S3072x1024_S32768x1024_1_0_0_1_n_n_wf
def dot_S32768x1024_S1024x50_S32768x50_1_0_0_1_n_n : DotDims S32768x1024 S1024x50 S32768x50 where
  lhsContracting := [1]
  rhsContracting := [0]
  lhsNonContracting := [0]
  rhsNonContracting := [1]
  lhsBatch := []
  rhsBatch := []
  wf := dot_S32768x1024_S1024x50_S32768x50_1_0_0_1_n_n_wf

class Facts : Prop extends Facts₀ where

variable [Facts]
-- ==== Proof.TwoLayer.lean ====
/-
  Two dense layers over the extended reals, index by index.

  For a row `r` of the input `x` (32768 rows of 3072 features) the hidden activation of unit `k` is
  `max (∑ l, x[r,l] · w1[l,k] + b1[k]) 0`, and the score of class `j` is `∑ k, hidden[r,k] · w2[k,j] + b2[j]`.
  The second layer is stated for any number `C` of columns, so that the same definition serves the 50 classes of
  the result and a weight matrix widened to 128 columns: a score depends only on column `j` of the weights and on
  entry `j` of the bias (`score_congr`), so columns added on the right change no score of the first 50.
-/
import Idealize.ShloMosaic.PureOps.Ideal
import Idealize.ShloMosaic.PureOps.Ideal.Laws
import Idealize.ShloMosaic.Lib.ValueIdx

noncomputable section

namespace Cert.TwoLayer

open Idealize.ShloMosaic Idealize.ShloMosaic.ValueIdx

/-- The hidden layer at row `r`, unit `k`: the rectified affine image of the row. -/
def activation (x : (⟨2, ![32768, 3072]⟩ : Shape).Idx → EReal) (w1 : (⟨2, ![3072, 1024]⟩ : Shape).Idx → EReal)
    (b1 : Fin 1024 → EReal) (r : Fin 32768) (k : Fin 1024) : EReal :=
  max ((∑ l : Fin 3072, x (ix2 r l) * w1 (ix2 l k)) + b1 k) 0

/-- The second layer on one row's hidden activations `h`: the score of column `j`. -/
def score {C : Nat} (h : Fin 1024 → EReal) (w2 : (⟨2, ![1024, C]⟩ : Shape).Idx → EReal) (b2 : Fin C → EReal)
    (j : Fin C) : EReal :=
  (∑ k : Fin 1024, h k * w2 (ix2 k j)) + b2 j

/-- A score reads one column of the weights and one entry of the bias: two weight matrices (of any widths) that
    agree on those give the same score. -/
theorem score_congr {C C' : Nat} (h : Fin 1024 → EReal) (w2 : (⟨2, ![1024, C]⟩ : Shape).Idx → EReal) (b2 : Fin C → EReal)
    (w2' : (⟨2, ![1024, C']⟩ : Shape).Idx → EReal) (b2' : Fin C' → EReal) (j : Fin C) (j' : Fin C')
    (hw : ∀ k : Fin 1024, w2 (ix2 k j) = w2' (ix2 k j')) (hb : b2 j = b2' j') :
    score h w2 b2 j = score h w2' b2' j' := by
  unfold score
  rw [hb]
  exact congrArg (· + b2' j') (Finset.sum_congr rfl fun k _ => by rw [hw k])

/-- The scores of all rows: the result array of the two layers, [32768, 50]. -/
def scores (x : (⟨2, ![32768, 3072]⟩ : Shape).Idx → EReal) (w1 : (⟨2, ![3072, 1024]⟩ : Shape).Idx → EReal)
    (b1 : (⟨1, ![1024]⟩ : Shape).Idx → EReal) (w2 : (⟨2, ![1024, 50]⟩ : Shape).Idx → EReal)
    (b2 : (⟨1, ![50]⟩ : Shape).Idx → EReal) : (⟨2, ![32768, 50]⟩ : Shape).Idx → EReal :=
  fun i => score (activation x w1 (fun k => b1 (ix1 k)) (i 0)) w2 (fun j => b2 (ix1 j)) (i 1)

theorem scores_apply (x : (⟨2, ![32768, 3072]⟩ : Shape).Idx → EReal) (w1 : (⟨2, ![3072, 1024]⟩ : Shape).Idx → EReal)
    (b1 : (⟨1, ![1024]⟩ : Shape).Idx → EReal) (w2 : (⟨2, ![1024, 50]⟩ : Shape).Idx → EReal)
    (b2 : (⟨1, ![50]⟩ : Shape).Idx → EReal) (r : Fin 32768) (j : Fin 50) :
    scores x w1 b1 w2 b2 (ix2 r j) = score (activation x w1 (fun k => b1 (ix1 k)) r) w2 (fun j => b2 (ix1 j)) j := rfl

end Cert.TwoLayer

end
-- ==== Proof.RefScores.lean ====
/-
  The reference computes the two dense layers: its last value, read at an index (r, j), is
  `∑ k, max (∑ l, x[r,l]·w1[l,k] + b1[k]) 0 · w2[k,j] + b2[j]` — each matrix product a sum over the contracted
  coordinate, each bias a vector repeated along the rows, the rectifier a maximum with the constant zero.
-/
import proofs.«109591_j20212116095223_2_alg».proof.Proof.Gen.ReferenceIdeal.Read
import proofs.«109591_j20212116095223_2_alg».proof.Proof.TwoLayer

noncomputable section

namespace Cert.ReferenceIdeal.Dense

open Cert.ReferenceIdeal Cert.ReferenceIdeal.Read Idealize.ShloMosaic Idealize.ShloMosaic.ValueIdx Cert.TwoLayer

/-- Where each stage reads its operands, in coordinates: the second bias at class `j`; -/
theorem bias2_idx (r : Fin 32768) (j : Fin 50) : idx_main_v6 (idx_main_v7 (ix2 r j)) = ix1 j :=
  funext fun a => Fin.ext (by match a with | ⟨0, _⟩ => rfl)
/-- the first bias at unit `k`; -/
theorem bias1_idx (r : Fin 32768) (k : Fin 1024) : idx_main_v1 (idx_main_v2 (ix2 r k)) = ix1 k :=
  funext fun a => Fin.ext (by match a with | ⟨0, _⟩ => rfl)
/-- the second product's factors at (r, k) and (k, j); -/
theorem lhs2_idx (r : Fin 32768) (j : Fin 50) (k : Fin 1024) : lidx_main_v5 (ix2 r j) k = ix2 r k :=
  funext fun a => Fin.ext (by match a with | ⟨0, _⟩ => rfl | ⟨1, _⟩ => rfl)
theorem rhs2_idx (r : Fin 32768) (j : Fin 50) (k : Fin 1024) : ridx_main_v5 (ix2 r j) k = ix2 k j :=
  funext fun a => Fin.ext (by match a with | ⟨0, _⟩ => rfl | ⟨1, _⟩ => rfl)
/-- the first product's factors at (r, l) and (l, k). -/
theorem lhs1_idx (r : Fin 32768) (k : Fin 1024) (l : Fin 3072) : lidx_main_v0 (ix2 r k) l = ix2 r l :=
  funext fun a => Fin.ext (by match a with | ⟨0, _⟩ => rfl | ⟨1, _⟩ => rfl)
theorem rhs1_idx (r : Fin 32768) (k : Fin 1024) (l : Fin 3072) : ridx_main_v0 (ix2 r k) l = ix2 l k :=
  funext fun a => Fin.ext (by match a with | ⟨0, _⟩ => rfl | ⟨1, _⟩ => rfl)

/-- The reference's result is `scores` of its five arguments. -/
theorem result_eq (x0 : S32768x3072.Idx → EReal) (x1 : S3072x1024.Idx → EReal) (x2 : S1024.Idx → EReal)
    (x3 : S1024x50.Idx → EReal) (x4 : S50.Idx → EReal) :
    val_main_v8 (F := Ideal) x0 x1 x2 x3 x4 = scores x0 x1 x2 x3 x4 := by
  funext i
  obtain ⟨r, j, rfl⟩ : ∃ (r : Fin 32768) (j : Fin 50), i = ix2 r j := ⟨i 0, i 1, eq_ix2 i⟩
  rw [scores_apply, val_main_v8_apply, val_main_v5_apply, val_main_v7_apply, val_main_v6_apply, bias2_idx]
  unfold score
  rw [Ideal.addf_def]
  refine congrArg₂ (· + ·) (Finset.sum_congr rfl fun k _ => ?_) rfl
  rw [lhs2_idx, rhs2_idx, val_main_v4_apply, val_main_v3_apply, val_main_v0_apply, val_main_v2_apply, val_main_v1_apply,
    val_main_call0_v0_apply, val_main_call0_cst_apply, bias1_idx]
  unfold activation
  rw [Ideal.maximumf_def, Ideal.addf_def, Ideal.ofBits_def, Ideal.ofBits_zero_f32]
  refine congrArg (· * x3 (ix2 k j)) (congrArg (max · 0) (congrArg (· + x2 (ix1 k)) (Finset.sum_congr rfl fun l _ => ?_)))
  rw [lhs1_idx, rhs1_idx]

end Cert.ReferenceIdeal.Dense

end
-- ==== Proof.BlockScores.lean ====
/-
  What the kernel body stores for one block of 512 rows, read at an entry (p, q) of the [512, 128] block:
  `∑ k, max (∑ l, x[p,l]·w1[l,k] + b1[0,k]) 0 · w2[k,q] + b2[0,q]` of the five blocks it loads — each matrix
  product into a zero accumulator a plain sum over the contracted coordinate, each one-row bias repeated along
  the rows, the narrowing of the operands to sixteen bits the identity on the extended reals.
-/
import proofs.«109591_j20212116095223_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The two products' operand coordinates: rows of the left factor, columns of the right, the contracted one shared -/

theorem dot1_lhs_row (j : S512x1024.Idx) (k : dot_S512x3072_S3072x1024_S512x1024_1_0_0_1_n_n.contr.Idx) : (dot_S512x3072_S3072x1024_S512x1024_1_0_0_1_n_n.lhsIdx j k 0).val = (j 0).val := by
  unfold DotDims.lhsIdx
  rw [dif_neg (show ¬(0 : Fin S512x3072.rank) ∈ dot_S512x3072_S3072x1024_S512x1024_1_0_0_1_n_n.lhsBatch by decide), dif_pos (show (0 : Fin S512x3072.rank) ∈ dot_S512x3072_S3072x1024_S512x1024_1_0_0_1_n_n.lhsNonContracting by decide)]
  rfl
theorem dot1_lhs_col (j : S512x1024.Idx) (k : dot_S512x3072_S3072x1024_S512x1024_1_0_0_1_n_n.contr.Idx) : (dot_S512x3072_S3072x1024_S512x1024_1_0_0_1_n_n.lhsIdx j k 1).val = (k ⟨0, by decide⟩).val :=
  dot_S512x3072_S3072x1024_S512x1024_1_0_0_1_n_n.lhsIdx_val_of_single rfl j k
theorem dot1_rhs_row (j : S512x1024.Idx) (k : dot_S512x3072_S3072x1024_S512x1024_1_0_0_1_n_n.contr.Idx) : (dot_S512x3072_S3072x1024_S512x1024_1_0_0_1_n_n.rhsIdx j k 0).val = (k ⟨0, by decide⟩).val :=
  dot_S512x3072_S3072x1024_S512x1024_1_0_0_1_n_n.rhsIdx_val_of_single rfl j k
theorem dot1_rhs_col (j : S512x1024.Idx) (k : dot_S512x3072_S3072x1024_S512x1024_1_0_0_1_n_n.contr.Idx) : (dot_S512x3072_S3072x1024_S512x1024_1_0_0_1_n_n.rhsIdx j k 1).val = (j 1).val := by
  unfold DotDims.rhsIdx
  rw [dif_neg (show ¬(1 : Fin S3072x1024.rank) ∈ dot_S512x3072_S3072x1024_S512x1024_1_0_0_1_n_n.rhsBatch by decide), dif_pos (show (1 : Fin S3072x1024.rank) ∈ dot_S512x3072_S3072x1024_S512x1024_1_0_0_1_n_n.rhsNonContracting by decide)]
  rfl

/-- The first product, rows × first weights into a zero accumulator, at (p, k): the sum over the 3072 features. -/
theorem product1_apply (a : FVec Ideal S512x3072 .bf16) (b : FVec Ideal S3072x1024 .bf16) (p : Fin 512) (q : Fin 1024) :
    matmul dot_S512x3072_S3072x1024_S512x1024_1_0_0_1_n_n none a b (constant S512x1024 .f32 0x00000000#32) (ix2 p q)
      = ∑ l : Fin 3072, a (ix2 p l) * b (ix2 l q) := by
  simp only [matmul]
  rw [Ideal.matmul_constant_zero_apply, ← Equiv.sum_comp (contrEquiv1 dot_S512x3072_S3072x1024_S512x1024_1_0_0_1_n_n 3072 rfl rfl).symm]
  refine Finset.sum_congr rfl fun l _ => ?_
  have hl := contrEquiv1_symm_val dot_S512x3072_S3072x1024_S512x1024_1_0_0_1_n_n 3072 rfl rfl l
  have el : dot_S512x3072_S3072x1024_S512x1024_1_0_0_1_n_n.lhsIdx (ix2 p q) ((contrEquiv1 dot_S512x3072_S3072x1024_S512x1024_1_0_0_1_n_n 3072 rfl rfl).symm l) = ix2 p l := funext fun ax => Fin.ext (by
    match ax with
    | ⟨0, _⟩ => exact dot1_lhs_row _ _
    | ⟨1, _⟩ => exact (dot1_lhs_col _ _).trans hl)
  have er : dot_S512x3072_S3072x1024_S512x1024_1_0_0_1_n_n.rhsIdx (ix2 p q) ((contrEquiv1 dot_S512x3072_S3072x1024_S512x1024_1_0_0_1_n_n 3072 rfl rfl).symm l) = ix2 l q := funext fun ax => Fin.ext (by
    match ax with
    | ⟨0, _⟩ => exact (dot1_rhs_row _ _).trans hl
    | ⟨1, _⟩ => exact dot1_rhs_col _ _)
  rw [el, er]

theorem dot2_lhs_row (j : S512x128.Idx) (k : dot_S512x1024_S1024x128_S512x128_1_0_0_1_n_n.contr.Idx) : (dot_S512x1024_S1024x128_S512x128_1_0_0_1_n_n.lhsIdx j k 0).val = (j 0).val := by
  unfold DotDims.lhsIdx
  rw [dif_neg (show ¬(0 : Fin S512x1024.rank) ∈ dot_S512x1024_S1024x128_S512x128_1_0_0_1_n_n.lhsBatch by decide), dif_pos (show (0 : Fin S512x1024.rank) ∈ dot_S512x1024_S1024x128_S512x128_1_0_0_1_n_n.lhsNonContracting by decide)]
  rfl
theorem dot2_lhs_col (j : S512x128.Idx) (k : dot_S512x1024_S1024x128_S512x128_1_0_0_1_n_n.contr.Idx) : (dot_S512x1024_S1024x128_S512x128_1_0_0_1_n_n.lhsIdx j k 1).val = (k ⟨0, by decide⟩).val :=
  dot_S512x1024_S1024x128_S512x128_1_0_0_1_n_n.lhsIdx_val_of_single rfl j k
theorem dot2_rhs_row (j : S512x128.Idx) (k : dot_S512x1024_S1024x128_S512x128_1_0_0_1_n_n.contr.Idx) : (dot_S512x1024_S1024x128_S512x128_1_0_0_1_n_n.rhsIdx j k 0).val = (k ⟨0, by decide⟩).val :=
  dot_S512x1024_S1024x128_S512x128_1_0_0_1_n_n.rhsIdx_val_of_single rfl j k
theorem dot2_rhs_col (j : S512x128.Idx) (k : dot_S512x1024_S1024x128_S512x128_1_0_0_1_n_n.contr.Idx) : (dot_S512x1024_S1024x128_S512x128_1_0_0_1_n_n.rhsIdx j k 1).val = (j 1).val := by
  unfold DotDims.rhsIdx
  rw [dif_neg (show ¬(1 : Fin S1024x128.rank) ∈ dot_S512x1024_S1024x128_S512x128_1_0_0_1_n_n.rhsBatch by decide), dif_pos (show (1 : Fin S1024x128.rank) ∈ dot_S512x1024_S1024x128_S512x128_1_0_0_1_n_n.rhsNonContracting by decide)]
  rfl

/-- The second product, activations × second weights into a zero accumulator, at (p, q): the sum over the 1024 units. -/
theorem product2_apply (a : FVec Ideal S512x1024 .bf16) (b : FVec Ideal S1024x128 .bf16) (p : Fin 512) (q : Fin 128) :
    matmul dot_S512x1024_S1024x128_S512x128_1_0_0_1_n_n none a b (constant S512x128 .f32 0x00000000#32) (ix2 p q)
      = ∑ l : Fin 1024, a (ix2 p l) * b (ix2 l q) := by
  simp only [matmul]
  rw [Ideal.matmul_constant_zero_apply, ← Equiv.sum_comp (contrEquiv1 dot_S512x1024_S1024x128_S512x128_1_0_0_1_n_n 1024 rfl rfl).symm]
  refine Finset.sum_congr rfl fun l _ => ?_
  have hl := contrEquiv1_symm_val dot_S512x1024_S1024x128_S512x128_1_0_0_1_n_n 1024 rfl rfl l
  have el : dot_S512x1024_S1024x128_S512x128_1_0_0_1_n_n.lhsIdx (ix2 p q) ((contrEquiv1 dot_S512x1024_S1024x128_S512x128_1_0_0_1_n_n 1024 rfl rfl).symm l) = ix2 p l := funext fun ax => Fin.ext (by
    match ax with
    | ⟨0, _⟩ => exact dot2_lhs_row _ _
    | ⟨1, _⟩ => exact (dot2_lhs_col _ _).trans hl)
  have er : dot_S512x1024_S1024x128_S512x128_1_0_0_1_n_n.rhsIdx (ix2 p q) ((contrEquiv1 dot_S512x1024_S1024x128_S512x128_1_0_0_1_n_n 1024 rfl rfl).symm l) = ix2 l q := funext fun ax => Fin.ext (by
    match ax with
    | ⟨0, _⟩ => exact (dot2_rhs_row _ _).trans hl
    | ⟨1, _⟩ => exact dot2_rhs_col _ _)
  rw [el, er]

/-- The stored block at (p, q), as a function of the five loaded blocks. -/
theorem stored_apply (x0 : Vec Ideal S512x3072 .f32) (x1 : Vec Ideal S3072x1024 .bf16) (x2 : Vec Ideal S1x1024 .f32)
    (x3 : Vec Ideal S1024x128 .bf16) (x4 : Vec Ideal S1x128 .f32) (p : Fin 512) (q : Fin 128) :
    k0_pay1 (F := Ideal) x0 x1 x2 x3 x4 (ix2 p q)
      = (∑ k : Fin 1024, max ((∑ l : Fin 3072, x0 (ix2 p l) * x1 (ix2 l k)) + x2 (ix2 (0 : Fin 1) k)) 0 * x3 (ix2 k q))
        + x4 (ix2 (0 : Fin 1) q) := by
  unfold k0_pay1
  simp only [shapeCast_self]
  rw [addf_apply, product2_apply, broadcastTo_1b_ab_apply]
  refine congrArg (· + x4 (ix2 (0 : Fin 1) q)) (Finset.sum_congr rfl fun k _ => ?_)
  rw [truncf_apply, maximumf_apply, addf_apply, product1_apply, broadcastTo_1b_ab_apply, broadcast_apply]
  refine congrArg (· * x3 (ix2 k q)) ?_
  show max _ (Ideal.ofBits .f32 0x00000000#32) = _
  rw [Ideal.ofBits_zero_f32]
  rfl

end Cert.KernelIdeal.Block

end
-- ==== Proof.PaddedScores.lean ====
/-
  The array the grid writes, [32768, 128]: point `t` of the 64 stores rows 512·t … 512·t + 511, all 128 columns,
  and reads rows 512·t … of the input and the whole of the four small arrays (both weight matrices and both one-row
  biases, as the region finds them). So the array ends as ONE function of those five arrays: the two dense layers
  with the 128-column weights, entry by entry; the 64 row blocks tile the array.
-/
import proofs.«109591_j20212116095223_2_alg».proof.Proof.Gen.KernelIdeal.Frame
import proofs.«109591_j20212116095223_2_alg».proof.Proof.BlockScores
import proofs.«109591_j20212116095223_2_alg».proof.Proof.TwoLayer
import Idealize.ShloMosaic.Lib.Pipeline.Value

noncomputable section

namespace Cert.KernelIdeal.Padded

open Cert.KernelIdeal Cert.KernelIdeal.Gen Idealize.ShloMosaic Idealize.ShloMosaic.TcCoe Idealize.SL.Sem
open Idealize.ShloMosaic.ValueIdx Cert.TwoLayer
open Idealize.ShloMosaic.Pipeline (Dat)

variable (m : (ℓ : Loc nD τ sig) → Buf (Elt Ideal) ℓ) (ρ : Dev nD → PrngReg)

/-- The two layers with weights of 128 columns and biases held as one-row matrices. -/
def wide (X : S32768x3072.Idx → EReal) (W1 : S3072x1024.Idx → EReal) (B1 : S1x1024.Idx → EReal)
    (W2 : S1024x128.Idx → EReal) (B2 : S1x128.Idx → EReal) : S32768x128.Idx → EReal :=
  fun i => score (activation X W1 (fun k => B1 (ix2 (0 : Fin 1) k)) (i 0)) W2 (fun q => B2 (ix2 (0 : Fin 1) q)) (i 1)

theorem wide_apply (X : S32768x3072.Idx → EReal) (W1 : S3072x1024.Idx → EReal) (B1 : S1x1024.Idx → EReal)
    (W2 : S1024x128.Idx → EReal) (B2 : S1x128.Idx → EReal) (r : Fin 32768) (q : Fin 128) :
    wide X W1 B1 W2 B2 (ix2 r q)
      = score (activation X W1 (fun k => B1 (ix2 (0 : Fin 1) k)) r) W2 (fun q => B2 (ix2 (0 : Fin 1) q)) q := rfl

theorem hz : (![0, 0] : Fin 2 → Nat) = fun _ => 0 := funext fun a => by fin_cases a <;> rfl

/-- The printed index maps over the grid: the input rows and the output move with the point, block index `t` on
    the row axis; the four small arrays stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block at point `t`, read in the array's own coordinates -/

/-- Row `p` of the input block at point `t` is row `512·t + p` of the input. -/
theorem rows_read (c : Dev nD) (t : Fin cfg0.N) (p : Fin 512) (l : Fin 3072) (r : Fin 32768) (hr : r.val = t.val * 512 + p.val) :
    (iblk m c 0 t : Vec Ideal S512x3072 .f32) (ix2 p l) = (V m c main_arg0 : S32768x3072.Idx → EReal) (ix2 r l) := by
  obtain ⟨e00, e01, -⟩ := idx_facts t
  show V m c main_arg0 (((cfg0.win 0).blk t).view.emb (ix2 p l)) = V m c main_arg0 (ix2 r l)
  refine congrArg (V m c main_arg0) (funext fun a => Fin.ext ?_)
  match a with
  | ⟨0, _⟩ => show win0_0.index t (0 : Fin 2) * 512 + 1 * p.val = r.val; rw [e00, hr]; omega
  | ⟨1, _⟩ => show win0_0.index t (1 : Fin 2) * 3072 + 1 * l.val = l.val; rw [e01]; omega

/-- The first weights' block is the whole matrix. -/
theorem weights1_read (c : Dev nD) (t : Fin cfg0.N) (l : Fin 3072) (k : Fin 1024) :
    (iblk m c 1 t : Vec Ideal S3072x1024 .bf16) (ix2 l k) = (V m c main_v0 : S3072x1024.Idx → EReal) (ix2 l k) := by
  obtain ⟨-, -, e10, e11, -⟩ := idx_facts t
  show V m c main_v0 (((cfg0.win 1).blk t).view.emb (ix2 l k)) = V m c main_v0 (ix2 l k)
  refine congrArg (V m c main_v0) (funext fun a => Fin.ext ?_)
  match a with
  | ⟨0, _⟩ => show win0_1.index t (0 : Fin 2) * 3072 + 1 * l.val = l.val; rw [e10]; omega
  | ⟨1, _⟩ => show win0_1.index t (1 : Fin 2) * 1024 + 1 * k.val = k.val; rw [e11]; omega

/-- The first bias' block is its one row. -/
theorem bias1_read (c : Dev nD) (t : Fin cfg0.N) (k : Fin 1024) :
    (iblk m c 2 t : Vec Ideal S1x1024 .f32) (ix2 (0 : Fin 1) k) = (V m c main_v2 : S1x1024.Idx → EReal) (ix2 (0 : Fin 1) k) := by
  obtain ⟨-, -, -, -, e20, e21, -⟩ := idx_facts t
  show V m c main_v2 (((cfg0.win 2).blk t).view.emb (ix2 (0 : Fin 1) k)) = V m c main_v2 (ix2 (0 : Fin 1) k)
  refine congrArg (V m c main_v2) (funext fun a => Fin.ext ?_)
  match a with
  | ⟨0, _⟩ => show win0_2.index t (0 : Fin 2) * 1 + 1 * 0 = 0; rw [e20]
  | ⟨1, _⟩ => show win0_2.index t (1 : Fin 2) * 1024 + 1 * k.val = k.val; rw [e21]; omega

/-- The second weights' block is the whole 128-column matrix. -/
theorem weights2_read (c : Dev nD) (t : Fin cfg0.N) (k : Fin 1024) (q : Fin 128) :
    (iblk m c 3 t : Vec Ideal S1024x128 .bf16) (ix2 k q) = (V m c main_v3 : S1024x128.Idx → EReal) (ix2 k q) := by
  obtain ⟨-, -, -, -, -, -, e30, e31, -⟩ := idx_facts t
  show V m c main_v3 (((cfg0.win 3).blk t).view.emb (ix2 k q)) = V m c main_v3 (ix2 k q)
  refine congrArg (V m c main_v3) (funext fun a => Fin.ext ?_)
  match a with
  | ⟨0, _⟩ => show win0_3.index t (0 : Fin 2) * 1024 + 1 * k.val = k.val; rw [e30]; omega
  | ⟨1, _⟩ => show win0_3.index t (1 : Fin 2) * 128 + 1 * q.val = q.val; rw [e31]; omega

/-- The second bias' block is its one row of 128. -/
theorem bias2_read (c : Dev nD) (t : Fin cfg0.N) (q : Fin 128) :
    (iblk m c 4 t : Vec Ideal S1x128 .f32) (ix2 (0 : Fin 1) q) = (V m c main_v5 : S1x128.Idx → EReal) (ix2 (0 : Fin 1) q) := by
  obtain ⟨-, -, -, -, -, -, -, -, e40, e41, -⟩ := idx_facts t
  show V m c main_v5 (((cfg0.win 4).blk t).view.emb (ix2 (0 : Fin 1) q)) = V m c main_v5 (ix2 (0 : Fin 1) q)
  refine congrArg (V m c main_v5) (funext fun a => Fin.ext ?_)
  match a with
  | ⟨0, _⟩ => show win0_4.index t (0 : Fin 2) * 1 + 1 * 0 = 0; rw [e40]
  | ⟨1, _⟩ => show win0_4.index t (1 : Fin 2) * 128 + 1 * q.val = q.val; rw [e41]; omega

/-- Entry (p, q) of the output block at point `t` is entry (512·t + p, q) of the output array. -/
theorem out_emb (t : Fin cfg0.N) (p : Fin 512) (q : Fin 128) (r : Fin 32768) (hr : r.val = t.val * 512 + p.val) :
    ((cfg0.win 5).blk t).view.emb (ix2 p q) = (ix2 r q : S32768x128.Idx) := by
  obtain ⟨-, -, -, -, -, -, -, -, -, -, e50, e51⟩ := idx_facts t
  funext a
  apply Fin.ext
  match a with
  | ⟨0, _⟩ => show win0_5.index t (0 : Fin 2) * 512 + 1 * p.val = r.val; rw [e50, hr]; omega
  | ⟨1, _⟩ => show win0_5.index t (1 : Fin 2) * 128 + 1 * q.val = q.val; rw [e51]; omega

/-! ## What a point writes back, and the whole array -/

/-- The array the region's output ends as, of the five arrays as the region finds them. -/
abbrev result (c : Dev nD) : S32768x128.Idx → EReal :=
  wide (V m c main_arg0) (V m c main_v0) (V m c main_v2) (V m c main_v3) (V m c main_v5)

/-- WHAT POINT `t` WRITES BACK is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero hz]
  simp only [View.ld_unit_zero (S := S512x3072) hz, View.ld_unit_zero (S := S3072x1024) hz, View.ld_unit_zero (S := S1x1024) hz,
    View.ld_unit_zero (S := S1024x128) hz, View.ld_unit_zero (S := S1x128) hz]
  funext y
  obtain ⟨p, q, rfl⟩ : ∃ (p : Fin 512) (q : Fin 128), y = ix2 p q := ⟨y 0, y 1, eq_ix2 y⟩
  have ht : t.val < 64 := lt_of_lt_of_eq t.isLt N_0
  have hr : (⟨t.val * 512 + p.val, by have := p.isLt; omega⟩ : Fin 32768).val = t.val * 512 + p.val := rfl
  show k0_pay1 (F := Ideal) (iblk m c 0 t) (iblk m c 1 t) (iblk m c 2 t) (iblk m c 3 t) (iblk m c 4 t) (ix2 p q)
    = result m c (((cfg0.win 5).blk t).view.emb (ix2 p q))
  rw [out_emb t p q _ hr]
  unfold result
  rw [wide_apply]
  refine (Block.stored_apply (iblk m c 0 t) (iblk m c 1 t) (iblk m c 2 t) (iblk m c 3 t) (iblk m c 4 t) p q).trans ?_
  unfold score activation
  refine congrArg₂ (· + ·) (Finset.sum_congr rfl fun k _ => ?_) (bias2_read m c t q)
  refine congrArg₂ (· * ·) (congrArg (max · 0) (congrArg₂ (· + ·) (Finset.sum_congr rfl fun l _ => ?_) (bias1_read m c t k)))
    (weights2_read m c t k q)
  exact congrArg₂ (· * ·) (rows_read m c t p l _ hr) (weights1_read m c t l k)

/-- An index of the array is in point `t`'s block iff each coordinate is in the block's range on its axis. -/
theorem mem_blk (t : Fin cfg0.N) (i : S32768x128.Idx) :
    i ∈ ((cfg0.win 5).blk t).view.set ↔ ∀ a : Fin 2, win0_5.index t a * S512x128.size a ≤ (i a).val ∧ (i a).val < win0_5.index t a * S512x128.size a + S512x128.size a := by
  show i ∈ ((View.whole main_v6).slice (win0_5.rect t)).set ↔ _
  rw [View.set_slice_whole, Rect.mem_set_unit]
  exact Iff.rfl

/-- The 64 row blocks tile the array: row `r` is in the block of point `r / 512`. -/
theorem cover (i : S32768x128.Idx) : ∃ t : Fin cfg0.N, (cfg0.win 5).flush t = true ∧ i ∈ ((cfg0.win 5).blk t).view.set := by
  have hi0 : (i 0).val < 32768 := (i 0).isLt
  have hi1 : (i 1).val < 128 := (i 1).isLt
  have hN : cfg0.N = 64 := N_0
  obtain ⟨t, ht⟩ : ∃ t : Fin cfg0.N, t.val = (i 0).val / 512 := ⟨⟨(i 0).val / 512, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; rw [e50, ht]; omega
  | ⟨1, _⟩ => show win0_5.index t (1 : Fin 2) * 128 ≤ (i 1).val ∧ (i 1).val < win0_5.index t (1 : Fin 2) * 128 + 128; rw [e51]; omega

/-- THE ARRAY after the region: `result`. -/
theorem final (c : Dev nD) : (dats m 0 c).arrAt 5 cfg0.N = result m c :=
  (dats m 0 c).arrAt_eq_of_cover 5 (result m c) (fun t _ => flushed_eq m c t) cover

end Cert.KernelIdeal.Padded

end
-- ==== Proof.KernelScores.lean ====
/-
  The kernel program's result is the two dense layers of its five arguments.

  Before the region the program narrows both weight matrices (the identity on the extended reals), lays each bias out
  as a one-row matrix, and widens the second weights and the second bias from 50 to 128 columns with a padding value;
  after the region it keeps columns 0 … 49 of the [32768, 128] array the grid wrote. A kept column `j < 50` of that array
  reads column `j` of the widened weights and entry `j` of the widened bias, which are the argument's own: the padding
  is never read, so the kept part is `scores` of the arguments.
-/
import proofs.«109591_j20212116095223_2_alg».proof.Proof.PaddedScores
import Idealize.ShloMosaic.Lib.KernelVsHost
import Idealize.ShloMosaic.Lib.ValueLayout
import Idealize.ShloMosaic.Lib.StableHlo.Run

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx Cert.TwoLayer
open Idealize.ShloMosaic.Pipeline (Dat)

variable (m : (ℓ : Loc nD τ sig) → Buf (Elt Ideal) ℓ) (ρ : Dev nD → PrngReg)

/-! ## The four small arrays as the region finds them -/

/-- The first weights, narrowed: the argument itself. -/
theorem weights1_entry (c : Dev nD) :
    (V m c main_v0 : S3072x1024.Idx → EReal) = (m ((c : Thread nD τ).loc main_arg1) : S3072x1024.Idx → EReal) := by
  dsimp only [Gen.V, Gen.V0]
  simp only [hostOps0, hostOps0_1, hostOps0_2, hostOps0_3, List.flatten_cons, List.flatten_nil, List.append_nil, List.cons_append, List.nil_append]
  after_results
  rfl

/-- The first bias as a one-row matrix. -/
theorem bias1_entry (c : Dev nD) :
    (V m c main_v2 : S1x1024.Idx → EReal)
      = shapeCast S1x1024 (m ((c : Thread nD τ).loc main_arg2) : S1024.Idx → EReal) Facts₀.shapeCasts_S1024_S1x1024 := by
  dsimp only [Gen.V, Gen.V0]
  simp only [hostOps0, hostOps0_1, hostOps0_2, hostOps0_3, List.flatten_cons, List.flatten_nil, List.append_nil, List.cons_append, List.nil_append]
  after_results
  rfl

/-- The second weights, narrowed and widened to 128 columns. -/
theorem weights2_entry (c : Dev nD) :
    (V m c main_v3 : S1024x128.Idx → EReal)
      = pad S1024x128 ![0, 0] ![0, 78] ![0, 0] (m ((c : Thread nD τ).loc main_arg3) : S1024x50.Idx → EReal)
          (sitofp (F := Ideal) .bf16 (constantI S_ 32 0#32)) Facts₀.pads_S1024x50_S1024x128_000_0780 Facts₀.h_S_ := by
  dsimp only [Gen.V, Gen.V0]
  simp only [hostOps0, hostOps0_1, hostOps0_2, hostOps0_3, List.flatten_cons, List.flatten_nil, List.append_nil, List.cons_append, List.nil_append]
  after_results
  rfl

/-- The second bias as a one-row matrix, widened to 128 columns. -/
theorem bias2_entry (c : Dev nD) :
    (V m c main_v5 : S1x128.Idx → EReal)
      = pad S1x128 ![0, 0] ![0, 78] ![0, 0]
          (shapeCast S1x50 (m ((c : Thread nD τ).loc main_arg4) : S50.Idx → EReal) Facts₀.shapeCasts_S50_S1x50)
          (sitofp (F := Ideal) .f32 (constantI S_ 32 0#32)) Facts₀.pads_S1x50_S1x128_000_0780 Facts₀.h_S_ := by
  dsimp only [Gen.V, Gen.V0]
  simp only [hostOps0, hostOps0_1, hostOps0_2, hostOps0_3, List.flatten_cons, List.flatten_nil, List.append_nil, List.cons_append, List.nil_append]
  after_results
  rfl

/-- Unit `k` of the one-row first bias is entry `k` of the argument. -/
theorem bias1_apply (c : Dev nD) (k : Fin 1024) :
    (V m c main_v2 : S1x1024.Idx → EReal) (ix2 (0 : Fin 1) k) = (m ((c : Thread nD τ).loc main_arg2) : S1024.Idx → EReal) (ix1 k) := by
  rw [bias1_entry]
  exact shapeCast_a_1a_apply _ _ 0 k

/-- A column below 50 of the widened weights is the argument's column. -/
theorem weights2_apply (c : Dev nD) (k : Fin 1024) (j : Fin 50) (q : Fin 128) (hq : q.val = j.val) :
    (V m c main_v3 : S1024x128.Idx → EReal) (ix2 k q) = (m ((c : Thread nD τ).loc main_arg3) : S1024x50.Idx → EReal) (ix2 k j) := by
  rw [weights2_entry]
  refine pad_apply_of_inside _ _ _ _ _ _ _ (ix2 k q) (ix2 k j) fun a => ?_
  match a with
  | ⟨0, _⟩ => show k.val = 0 + k.val * (0 + 1); omega
  | ⟨1, _⟩ => show q.val = 0 + j.val * (0 + 1); omega

/-- An entry below 50 of the widened bias is the argument's entry. -/
theorem bias2_apply (c : Dev nD) (j : Fin 50) (q : Fin 128) (hq : q.val = j.val) :
    (V m c main_v5 : S1x128.Idx → EReal) (ix2 (0 : Fin 1) q) = (m ((c : Thread nD τ).loc main_arg4) : S50.Idx → EReal) (ix1 j) := by
  rw [bias2_entry]
  refine (pad_apply_of_inside _ _ _ _ _ _ _ (ix2 (0 : Fin 1) q) (ix2 (0 : Fin 1) j) fun a => ?_).trans (shapeCast_a_1a_apply _ _ 0 j)
  match a with
  | ⟨0, _⟩ => show 0 = 0 + 0 * (0 + 1); omega
  | ⟨1, _⟩ => show q.val = 0 + j.val * (0 + 1); omega

/-! ## After the region: the first 50 columns -/

/-- The result buffer after the last host line: columns 0 … 49 of the array the grid wrote. -/
theorem kept_columns (c : Dev nD) :
    (Pipeline.afterTail₀ cfgs (dats m) 0 (V0 m) [hostOps1] c main_v7 : S32768x50.Idx → EReal)
      = extractStridedSlice S32768x50 ![0, 0] (Padded.result m c) Facts₀.slices_S32768x128_S32768x50_0_0 := by
  unfold Pipeline.afterTail₀
  show StableHlo.after hostOps1 _ (Proc.devRef .tc main_v7) = _
  after_results
  have e : (Pipeline.withArrays (cfgs 0).spec c (V0 m c) (fun w => (dats m 0 c).arrAt w (cfgs 0).N) (Proc.devRef .tc main_v6) : S32768x128.Idx → EReal)
      = Padded.result m c :=
    (Pipeline.withArrays_arr spec0 launch0.win.arr_inj c _ _ 5).trans (Padded.final m c)
  rw [e]

/-- The kernel program's result: `scores` of the five arguments. -/
theorem result_eq (c : Dev nD) :
    (Pipeline.afterTail₀ cfgs (dats m) 0 (V0 m) [hostOps1] c main_v7 : S32768x50.Idx → EReal)
      = scores (m ((c : Thread nD τ).loc main_arg0)) (m ((c : Thread nD τ).loc main_arg1)) (m ((c : Thread nD τ).loc main_arg2))
          (m ((c : Thread nD τ).loc main_arg3)) (m ((c : Thread nD τ).loc main_arg4)) := by
  rw [kept_columns]
  funext i
  obtain ⟨r, j, rfl⟩ : ∃ (r : Fin 32768) (j : Fin 50), i = ix2 r j := ⟨i 0, i 1, eq_ix2 i⟩
  have hq : (⟨j.val, by have := j.isLt; omega⟩ : Fin 128).val = j.val := rfl
  refine (extractStridedSlice_apply _ _ _ (ix2 r j) (ix2 r (⟨j.val, by have := j.isLt; omega⟩ : Fin 128)) fun a => ?_).trans ?_
  · match a with
    | ⟨0, _⟩ => exact (Nat.zero_add _).symm
    | ⟨1, _⟩ => exact (Nat.zero_add _).symm
  unfold Padded.result
  rw [Padded.wide_apply, scores_apply]
  have hA : activation (V m c main_arg0) (V m c main_v0) (fun k => (V m c main_v2 : S1x1024.Idx → EReal) (ix2 (0 : Fin 1) k)) r
      = activation (m ((c : Thread nD τ).loc main_arg0)) (m ((c : Thread nD τ).loc main_arg1))
          (fun k => (m ((c : Thread nD τ).loc main_arg2) : S1024.Idx → EReal) (ix1 k)) r := by
    rw [V_main_arg0, weights1_entry]
    exact congrArg (fun b => activation _ _ b r) (funext fun k => bias1_apply m c k)
  rw [hA]
  exact score_congr _ _ _ _ _ _ _ (fun k => weights2_apply m c k j _ hq) (bias2_apply m c j _ hq)

/-! ## The run -/

/-- Every weakly fair execution of the kernel program ends with the result at `scores` of the arguments and the
    arguments unchanged. -/
theorem run : θ_run defs (onTc (τ := τ) (main (F := Ideal))) ⟨m, fun _ => 0, ρ⟩ fun r => ∀ c : Dev nD,
      r.2.mem ((c : Thread nD τ).loc main_v7)
        = scores (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
    ⟨((h c).2 main_v7 (Pipeline.mem_restRefs_of main_v7 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/- The proof of `Cert.Claim` (proofs.«109591_j20212116095223_2_alg».proof.Defs): a kernel that applies two dense layers,
   `scores = max (x·w1 + b1) 0 · w2 + b2`, to blocks of 512 rows — the operands of both products narrowed to sixteen
   bits, the second weights and bias widened to 128 columns and the first 50 columns of the result kept — against the
   same two layers written with whole-array operations.
   On the extended reals both programs end with the array `Cert.TwoLayer.scores` of the arguments (Proof/TwoLayer.lean):
   the reference by reading its operations at an index (Proof/RefScores.lean); the kernel because each grid point
   writes its 512 rows of the 128-column layers (Proof/BlockScores.lean, Proof/PaddedScores.lean: the 64 row blocks
   tile the array), a kept column reads only the arguments' own columns, never the padding, and narrowing is the
   identity (Proof/KernelScores.lean). The sums are over the same index sets in both programs, so no law beyond
   rewriting equal terms is used and the finiteness of the inputs is not needed. The idealization rewrote nothing, so
   `preserves` is trivial; the two kernel programs' frames are the generated frame certificates, the reference's frame
   its generated run with the result dropped. -/
import proofs.«109591_j20212116095223_2_alg».proof.Defs
import proofs.«109591_j20212116095223_2_alg».proof.Proof.Gen.Kernel
import proofs.«109591_j20212116095223_2_alg».proof.Proof.Gen.Kernel.Skeleton
import proofs.«109591_j20212116095223_2_alg».proof.Proof.Gen.Kernel.Launch
import proofs.«109591_j20212116095223_2_alg».proof.Proof.Gen.Kernel.Points
import proofs.«109591_j20212116095223_2_alg».proof.Proof.Gen.Kernel.Frame
import proofs.«109591_j20212116095223_2_alg».proof.Proof.Gen.KernelIdeal
import proofs.«109591_j20212116095223_2_alg».proof.Proof.Gen.KernelIdeal.Skeleton
import proofs.«109591_j20212116095223_2_alg».proof.Proof.Gen.KernelIdeal.Launch
import proofs.«109591_j20212116095223_2_alg».proof.Proof.Gen.KernelIdeal.Points
import proofs.«109591_j20212116095223_2_alg».proof.Proof.Gen.KernelIdeal.Frame
import proofs.«109591_j20212116095223_2_alg».proof.Proof.Gen.ReferenceIdeal
import proofs.«109591_j20212116095223_2_alg».proof.Proof.Gen.Pre_finite_inputs
import proofs.«109591_j20212116095223_2_alg».proof.Proof.Gen.ReferenceIdeal.Run
import proofs.«109591_j20212116095223_2_alg».proof.Proof.Gen.ReferenceIdeal.Read
import proofs.«109591_j20212116095223_2_alg».proof.Proof.RefScores
import proofs.«109591_j20212116095223_2_alg».proof.Proof.KernelScores
import Idealize.ShloMosaic.Adequacy
import Idealize.ShloMosaic.Init

noncomputable section

namespace Cert.Proof

open Idealize.ShloMosaic Idealize.SL.Sem

/-- The word-level kernel program terminates without fault and leaves its arguments unchanged. -/
theorem frame_kernel : Cert.frame_Kernel := fun m ρ _ => Cert.Kernel.Gen.frame m ρ

/-- So does the kernel program read on the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the result at `scores` of the arguments. -/
theorem algebraic : Cert.algebraic_KernelIdeal_ReferenceIdeal := by
  intro m ρ m' ρ' _ hagree
  refine ⟨fun c => Cert.TwoLayer.scores (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Dense.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
